-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x32 : Shape := ⟨2, ![50000, 32]⟩
abbrev S64x128 : Shape := ⟨2, ![64, 128]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S100000x128 .f32) (main_arg1 : IVec S50000x32 32) (main_arg2 : FVec F S64x128 .f32) (main_arg3 : FVec F S64x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  main_v13
-- ==== Kernel.lean ====
abbrev S100000x128 : Shape := ⟨2, ![100000, 128]⟩
abbrev S50000x32 : Shape := ⟨2, ![50000, 32]⟩
abbrev S64x128 : Shape := ⟨2, ![64, 128]⟩
abbrev S64x64 : Shape := ⟨2, ![64, 64]⟩
abbrev S_ : Shape := ⟨0, ![]⟩
abbrev S1x128 : Shape := ⟨2, ![1, 128]⟩
abbrev S100001x128 : Shape := ⟨2, ![100001, 128]⟩
abbrev S50000x32x1 : Shape := ⟨3, ![50000, 32, 1]⟩
abbrev S50000x32x128 : Shape := ⟨3, ![50000, 32, 128]⟩
abbrev S50000x128 : Shape := ⟨2, ![50000, 128]⟩
abbrev S400x32x128 : Shape := ⟨3, ![400, 32, 128]⟩
abbrev S400x128 : Shape := ⟨2, ![400, 128]⟩
abbrev S12800x128 : Shape := ⟨2, ![12800, 128]⟩
abbrev S12800x64 : Shape := ⟨2, ![12800, 64]⟩
abbrev S400x32x64 : Shape := ⟨3, ![400, 32, 64]⟩
abbrev S400x64 : Shape := ⟨2, ![400, 64]⟩

abbrev nBuf : Space → Nat
  | .hbm => 20
  | .vmem => 6
  | .smem => 0
  | _ => 0

abbrev bufTy : (tb : Table) → Fin (tcTables nBuf tb) → BufTy
  | .hbm, ⟨0, _⟩ => ⟨S100000x128, .f32⟩
  | .hbm, ⟨1, _⟩ => ⟨S50000x32, .i32⟩
  | .hbm, ⟨2, _⟩ => ⟨S64x128, .f32⟩
  | .hbm, ⟨3, _⟩ => ⟨S64x64, .f32⟩
  | .hbm, ⟨4, _⟩ => ⟨S_, .f32⟩
  | .hbm, ⟨5, _⟩ => ⟨S1x128, .f32⟩
  | .hbm, ⟨6, _⟩ => ⟨S100001x128, .f32⟩
  | .hbm, ⟨7, _⟩ => ⟨S100001x128, .bf16⟩
  | .hbm, ⟨8, _⟩ => ⟨S_, .i32⟩
  | .hbm, ⟨9, _⟩ => ⟨S50000x32, .i32⟩
  | .hbm, ⟨10, _⟩ => ⟨S50000x32, .i1⟩
  | .hbm, ⟨11, _⟩ => ⟨S_, .i32⟩
  | .hbm, ⟨12, _⟩ => ⟨S50000x32, .i32⟩
  | .hbm, ⟨13, _⟩ => ⟨S50000x32, .i32⟩
  | .hbm, ⟨14, _⟩ => ⟨S50000x32, .i32⟩
  | .hbm, ⟨15, _⟩ => ⟨S50000x32x1, .i32⟩
  | .hbm, ⟨16, _⟩ => ⟨S50000x32x128, .bf16⟩
  | .hbm, ⟨17, _⟩ => ⟨S64x128, .bf16⟩
  | .hbm, ⟨18, _⟩ => ⟨S64x64, .bf16⟩
  | .hbm, ⟨19, _⟩ => ⟨S50000x128, .f32⟩
  | .local _ .vmem, ⟨0, _⟩ => ⟨S400x32x128, .bf16⟩
  | .local _ .vmem, ⟨1, _⟩ => ⟨S400x32x128, .bf16⟩
  | .local _ .vmem, ⟨2, _⟩ => ⟨S64x128, .bf16⟩
  | .local _ .vmem, ⟨3, _⟩ => ⟨S64x64, .bf16⟩
  | .local _ .vmem, ⟨4, _⟩ => ⟨S400x128, .f32⟩
  | .local _ .vmem, ⟨5, _⟩ => ⟨S400x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![125], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x32x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1x128 : S_.BroadcastsInDim S1x128 (![] : Fin 0 → Fin S1x128.rank)
  concatenates_S1x128_S100000x128_S100001x128_d0 : Shape.Concatenates [S1x128, S100000x128] S100001x128 0
  bitsLt_bf16_f32 : FTy.bits .bf16 < FTy.bits .f32
  bcast_S_S50000x32 : S_.BroadcastsInDim S50000x32 (![] : Fin 0 → Fin S50000x32.rank)
  bcast_S50000x32_S50000x32x1_0_1 : S50000x32.BroadcastsInDim S50000x32x1 (![0, 1] : Fin 2 → Fin S50000x32x1.rank)
  inb_S400x32x128_S400x32x128_0_0_0 : ∀ a, (![0, 0, 0] : Fin 3 → Nat) a + S400x32x128.size a ≤ S400x32x128.size a
  h_S400x32x128 : 0 < S400x32x128.numel
  shapeCasts_S400x32x128_S400x32x128 : S400x32x128.ShapeCasts S400x32x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S400x32x128_S12800x128 : S400x32x128.ShapeCasts S12800x128
  shapeCasts_S12800x64_S400x32x64 : S12800x64.ShapeCasts S400x32x64
  reduces_S400x32x64_S400x64 : S400x32x64.Reduces [1] S400x64
  concatenates_S400x64_S400x64_S400x128_d1 : Shape.Concatenates [S400x64, S400x64] S400x128 1
  inb_S400x128_S400x128_0_0 : ∀ a, (![0, 0] : Fin 2 → Nat) a + S400x128.size a ≤ S400x128.size a
  h_S400x128 : 0 < S400x128.numel
  gather_S100001x128_S50000x32x1_S50000x32x128_2_0_n_n_0_2_1128_wf : GatherDims.WF S100001x128 S50000x32x1 S50000x32x128 [2] [0] [] [0] [] 2 ![1, 128]
  dot_S12800x128_S64x128_S12800x64_1_1_0_0_n_n_wf : DotDims.WF S12800x128 S64x128 S12800x64 [1] [1] [0] [0] [] []
  dot_S12800x64_S64x64_S12800x64_1_1_0_0_n_n_wf : DotDims.WF S12800x64 S64x64 S12800x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x32x128.size a ≤ S50000x32x128.size a
  hwx0_0 : ∀ i : grid0.Coords, EltTy.bits .bf16 = 32 ∨ (Rect.block (s := S50000x32x128) S400x32x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .bf16 = 32 ∨ (Rect.block (s := S64x128) S64x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .bf16 = 32 ∨ (Rect.block (s := S64x64) S64x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x128.size a ≤ S50000x128.size a
  hwx0_3 : ∀ i : grid0.Coords, EltTy.bits .f32 = 32 ∨ (Rect.block (s := S50000x128) S400x128.size (cc0_transform_3 i) (hinb0_3 i)).WholeWords (EltTy.packing .f32)

variable [Facts₀]

def gather_S100001x128_S50000x32x1_S50000x32x128_2_0_n_n_0_2_1128 : GatherDims S100001x128 S50000x32x1 S50000x32x128 where
  offsetDims := [2]
  collapsedSliceDims := [0]
  operandBatchingDims := []
  startIndicesBatchingDims := []
  startIndexMap := [0]
  indexVectorDim := 2
  sliceSizes := ![1, 128]
  wf := gather_S100001x128_S50000x32x1_S50000x32x128_2_0_n_n_0_2_1128_wf
def dot_S12800x128_S64x128_S12800x64_1_1_0_0_n_n : DotDims S12800x128 S64x128 S12800x64 where
  lhsContracting := [1]
  rhsContracting := [1]
  lhsNonContracting := [0]
  rhsNonContracting := [0]
  lhsBatch := []
  rhsBatch := []
  wf := dot_S12800x128_S64x128_S12800x64_1_1_0_0_n_n_wf
def dot_S12800x64_S64x64_S12800x64_1_1_0_0_n_n : DotDims S12800x64 S64x64 S12800x64 where
  lhsContracting := [1]
  rhsContracting := [1]
  lhsNonContracting := [0]
  rhsNonContracting := [0]
  lhsBatch := []
  rhsBatch := []
  wf := dot_S12800x64_S64x64_S12800x64_1_1_0_0_n_n_wf

abbrev win0_0 : Pipeline.Window sig grid0 :=
  Pipeline.Window.ofSpec (Memref.whole main_v9) S400x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S400x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S50000x32 : Shape := ⟨2, ![50000, 32]⟩
abbrev S64x128 : Shape := ⟨2, ![64, 128]⟩
abbrev S64x64 : Shape := ⟨2, ![64, 64]⟩
abbrev S_ : Shape := ⟨0, ![]⟩
abbrev S1x128 : Shape := ⟨2, ![1, 128]⟩
abbrev S100001x128 : Shape := ⟨2, ![100001, 128]⟩
abbrev S50000x32x1 : Shape := ⟨3, ![50000, 32, 1]⟩
abbrev S50000x32x128 : Shape := ⟨3, ![50000, 32, 128]⟩
abbrev S50000x32x64 : Shape := ⟨3, ![50000, 32, 64]⟩
abbrev S50000x128 : Shape := ⟨2, ![50000, 128]⟩

abbrev nBuf : Space → Nat
  | .hbm => 35
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S50000x32, .i32⟩
  | .hbm, ⟨2, _⟩ => ⟨S64x128, .f32⟩
  | .hbm, ⟨3, _⟩ => ⟨S64x64, .f32⟩
  | .hbm, ⟨4, _⟩ => ⟨S_, .f32⟩
  | .hbm, ⟨5, _⟩ => ⟨S1x128, .f32⟩
  | .hbm, ⟨6, _⟩ => ⟨S100001x128, .f32⟩
  | .hbm, ⟨7, _⟩ => ⟨S_, .i32⟩
  | .hbm, ⟨8, _⟩ => ⟨S50000x32, .i32⟩
  | .hbm, ⟨9, _⟩ => ⟨S50000x32, .i1⟩
  | .hbm, ⟨10, _⟩ => ⟨S_, .i32⟩
  | .hbm, ⟨11, _⟩ => ⟨S50000x32, .i32⟩
  | .hbm, ⟨12, _⟩ => ⟨S50000x32, .i32⟩
  | .hbm, ⟨13, _⟩ => ⟨S50000x32, .i32⟩
  | .hbm, ⟨14, _⟩ => ⟨S50000x32x1, .i32⟩
  | .hbm, ⟨15, _⟩ => ⟨S50000x32x128, .f32⟩
  | .hbm, ⟨16, _⟩ => ⟨S50000x32x64, .f32⟩
  | .hbm, ⟨17, _⟩ => ⟨S_, .f32⟩
  | .hbm, ⟨18, _⟩ => ⟨S50000x32x64, .f32⟩
  | .hbm, ⟨19, _⟩ => ⟨S50000x32x64, .i1⟩
  | .hbm, ⟨20, _⟩ => ⟨S_, .f32⟩
  | .hbm, ⟨21, _⟩ => ⟨S50000x32x64, .f32⟩
  | .hbm, ⟨22, _⟩ => ⟨S50000x32x64, .f32⟩
  | .hbm, ⟨23, _⟩ => ⟨S50000x32x64, .f32⟩
  | .hbm, ⟨24, _⟩ => ⟨S50000x32x64, .f32⟩
  | .hbm, ⟨25, _⟩ => ⟨S_, .f32⟩
  | .hbm, ⟨26, _⟩ => ⟨S50000x32x64, .f32⟩
  | .hbm, ⟨27, _⟩ => ⟨S50000x32x64, .i1⟩
  | .hbm, ⟨28, _⟩ => ⟨S_, .f32⟩
  | .hbm, ⟨29, _⟩ => ⟨S50000x32x64, .f32⟩
  | .hbm, ⟨30, _⟩ => ⟨S50000x32x64, .f32⟩
  | .hbm, ⟨31, _⟩ => ⟨S50000x32x64, .f32⟩
  | .hbm, ⟨32, _⟩ => ⟨S50000x32x128, .f32⟩
  | .hbm, ⟨33, _⟩ => ⟨S_, .f32⟩
  | .hbm, ⟨34, _⟩ => ⟨S50000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩

abbrev nD : Nat := 1
abbrev τ : Topo := Topo.v7x

variable {F : FTy → Type} [FloatOps F]

class Facts₀ : Prop where
  bcast_S_S1x128 : S_.BroadcastsInDim S1x128 (![] : Fin 0 → Fin S1x128.rank)
  concatenates_S1x128_S100000x128_S100001x128_d0 : Shape.Concatenates [S1x128, S100000x128] S100001x128 0
  bcast_S_S50000x32 : S_.BroadcastsInDim S50000x32 (![] : Fin 0 → Fin S50000x32.rank)
  bcast_S50000x32_S50000x32x1_0_1 : S50000x32.BroadcastsInDim S50000x32x1 (![0, 1] : Fin 2 → Fin S50000x32x1.rank)
  bcast_S_S50000x32x64 : S_.BroadcastsInDim S50000x32x64 (![] : Fin 0 → Fin S50000x32x64.rank)
  concatenates_S50000x32x64_S50000x32x64_S50000x32x128_d2 : Shape.Concatenates [S50000x32x64, S50000x32x64] S50000x32x128 2
  reducesTo_S50000x32x128_S50000x128_d1 : S50000x32x128.ReducesTo [1] S50000x128
  h_S_ : 0 < S_.numel
  gather_S100001x128_S50000x32x1_S50000x32x128_2_0_n_n_0_2_1128_wf : GatherDims.WF S100001x128 S50000x32x1 S50000x32x128 [2] [0] [] [0] [] 2 ![1, 128]
  dot_S50000x32x128_S64x128_S50000x32x64_2_1_01_0_n_n_wf : DotDims.WF S50000x32x128 S64x128 S50000x32x64 [2] [1] [0, 1] [0] [] []
  dot_S50000x32x64_S64x64_S50000x32x64_2_1_01_0_n_n_wf : DotDims.WF S50000x32x64 S64x64 S50000x32x64 [2] [1] [0, 1] [0] [] []

variable [Facts₀]

def gather_S100001x128_S50000x32x1_S50000x32x128_2_0_n_n_0_2_1128 : GatherDims S100001x128 S50000x32x1 S50000x32x128 where
  offsetDims := [2]
  collapsedSliceDims := [0]
  operandBatchingDims := []
  startIndicesBatchingDims := []
  startIndexMap := [0]
  indexVectorDim := 2
  sliceSizes := ![1, 128]
  wf := gather_S100001x128_S50000x32x1_S50000x32x128_2_0_n_n_0_2_1128_wf
def dot_S50000x32x128_S64x128_S50000x32x64_2_1_01_0_n_n : DotDims S50000x32x128 S64x128 S50000x32x64 where
  lhsContracting := [2]
  rhsContracting := [1]
  lhsNonContracting := [0, 1]
  rhsNonContracting := [0]
  lhsBatch := []
  rhsBatch := []
  wf := dot_S50000x32x128_S64x128_S50000x32x64_2_1_01_0_n_n_wf
def dot_S50000x32x64_S64x64_S50000x32x64_2_1_01_0_n_n : DotDims S50000x32x64 S64x64 S50000x32x64 where
  lhsContracting := [2]
  rhsContracting := [1]
  lhsNonContracting := [0, 1]
  rhsNonContracting := [0]
  lhsBatch := []
  rhsBatch := []
  wf := dot_S50000x32x64_S64x64_S50000x32x64_2_1_01_0_n_n_wf

class Facts : Prop extends Facts₀ where

variable [Facts]
-- ==== Proof.PoolSpec.lean ====
/-
  The function both programs compute, row by row, on the extended reals.

  A row of the result belongs to one node `n`. Its `32` neighbours each carry a feature vector of length
  `128` (row `l` of the gathered array). Each neighbour is sent through two linear maps with a leaky
  rectifier after each: `a l o = φ (∑ c, x l c · w1 o c)` for `o < 64`, then
  `b l o = φ (∑ h, a l h · w2 o h)`, where `φ t = t` for `t > 0` and `s · t` otherwise (`s` the f32
  word `0x3D4CCCCD`). Entry `j` of the row is the maximum over the neighbours of `a l j` when `j < 64`
  and of `b l (j - 64)` otherwise: the maximum over neighbours of the two halves laid side by side is
  the two maxima laid side by side, because the half an entry lies in depends on `j` only.
-/
import Idealize.ShloMosaic.PureOps.Ideal
import Idealize.ShloMosaic.PureOps.Ideal.Laws
import Idealize.ShloMosaic.Lib.ValueIdx

noncomputable section

namespace Cert.PoolSpec

open Idealize.ShloMosaic Idealize.ShloMosaic.ValueIdx

/-- The leaky rectifier: the argument where it is above zero, the slope word times it elsewhere. -/
def leaky (t : EReal) : EReal :=
  Scalar.select (Ideal.cmp .ogt t (Ideal.ofBits .f32 0x00000000#32)) t (Ideal.ofBits .f32 0x3D4CCCCD#32 * t)

/-- First layer of one neighbour: output channel `o` of its features `x` against the rows of `w1`. -/
def layer1 (x : Fin 128 → EReal) (w1 : (⟨2, ![64, 128]⟩ : Shape).Idx → EReal) (o : Fin 64) : EReal :=
  leaky (∑ c : Fin 128, x c * w1 (ix2 o c))

/-- Second layer of one neighbour: output channel `o` of its first-layer values against the rows of `w2`. -/
def layer2 (x : Fin 128 → EReal) (w1 : (⟨2, ![64, 128]⟩ : Shape).Idx → EReal)
    (w2 : (⟨2, ![64, 64]⟩ : Shape).Idx → EReal) (o : Fin 64) : EReal :=
  leaky (∑ h : Fin 64, layer1 x w1 h * w2 (ix2 o h))

/-- The maximum over the 32 neighbours, started from the word `0xFF800000` (minus infinity). -/
def top (f : Fin 32 → EReal) : EReal :=
  (Finset.univ : Finset (Fin 32)).fold max (Ideal.ofBits .f32 0xFF800000#32) f

/-- Entry `j` of a node's row from its neighbours' features `x l c`. -/
def poolEntry (x : Fin 32 → Fin 128 → EReal) (w1 : (⟨2, ![64, 128]⟩ : Shape).Idx → EReal)
    (w2 : (⟨2, ![64, 64]⟩ : Shape).Idx → EReal) (j : Fin 128) : EReal :=
  if h : j.val < 64 then top fun l => layer1 (x l) w1 ⟨j.val, h⟩
  else top fun l => layer2 (x l) w1 w2 ⟨j.val - 64, by have := j.isLt; omega⟩

/-- The two halves laid side by side at entry `j` of neighbour `l`. -/
def both (x : Fin 32 → Fin 128 → EReal) (w1 : (⟨2, ![64, 128]⟩ : Shape).Idx → EReal)
    (w2 : (⟨2, ![64, 64]⟩ : Shape).Idx → EReal) (j : Fin 128) (l : Fin 32) : EReal :=
  if h : j.val < 64 then layer1 (x l) w1 ⟨j.val, h⟩
  else layer2 (x l) w1 w2 ⟨j.val - 64, by have := j.isLt; omega⟩

/-- The maximum over the neighbours of the halves laid side by side is `poolEntry`: which half entry `j` lies in
    does not depend on the neighbour. -/
theorem top_both (x : Fin 32 → Fin 128 → EReal) (w1 : (⟨2, ![64, 128]⟩ : Shape).Idx → EReal)
    (w2 : (⟨2, ![64, 64]⟩ : Shape).Idx → EReal) (j : Fin 128) :
    top (both x w1 w2 j) = poolEntry x w1 w2 j := by
  unfold poolEntry
  by_cases h : j.val < 64
  · rw [dif_pos h]
    exact congrArg top (funext fun l => by unfold both; rw [dif_pos h])
  · rw [dif_neg h]
    exact congrArg top (funext fun l => by unfold both; rw [dif_neg h])

/-- The whole result, [50000, 128], from the gathered array [50000, 32, 128] and the two weight matrices. -/
def poolResult (X : (⟨3, ![50000, 32, 128]⟩ : Shape).Idx → EReal) (w1 : (⟨2, ![64, 128]⟩ : Shape).Idx → EReal)
    (w2 : (⟨2, ![64, 64]⟩ : Shape).Idx → EReal) : (⟨2, ![50000, 128]⟩ : Shape).Idx → EReal :=
  fun i => poolEntry (fun l c => X (ix3 (i 0) l c)) w1 w2 (i 1)

end Cert.PoolSpec

end
-- ==== Proof.KernelBody.lean ====
/-
  What the kernel body stores, read entry by entry.

  The body holds one block of 400 nodes: their gathered features `x0` [400, 32, 128] and the whole weight
  matrices `x1` [64, 128] and `x2` [64, 64]. It flattens the block to 12800 rows (row `32 p + l` is
  neighbour `l` of node `p`), multiplies by the transpose of `x1` into a zero accumulator, applies the
  leaky rectifier, multiplies the result by the transpose of `x2`, applies the rectifier again, views
  both [12800, 64] arrays as [400, 32, 64], takes the maximum over the neighbour axis of each, and lays
  the two [400, 64] maxima side by side. On the extended reals a product into a zero accumulator is the
  plain sum over the contracted index, and a change of float format is the identity, so entry `(p, j)`
  of what is stored is `PoolSpec.poolEntry` of node `p`'s rows of `x0`.
-/
import proofs.«181060_j61950608277608_1_alg».proof.Proof.Gen.KernelIdeal.Skeleton
import proofs.«181060_j61950608277608_1_alg».proof.Proof.PoolSpec
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx Cert.PoolSpec

abbrev dotA := dot_S12800x128_S64x128_S12800x64_1_1_0_0_n_n
abbrev dotB := dot_S12800x64_S64x64_S12800x64_1_1_0_0_n_n

variable (x0 : FVec Ideal S400x32x128 .bf16) (x1 : FVec Ideal S64x128 .bf16) (x2 : FVec Ideal S64x64 .bf16)

/-! ## The two products' operand indices -/

theorem dotA_lhs0 (i : S12800x64.Idx) (q : dotA.contr.Idx) : (dotA.lhsIdx i q 0).val = (i 0).val := by
  unfold DotDims.lhsIdx
  rw [dif_neg (show ¬(0 : Fin S12800x128.rank) ∈ dotA.lhsBatch by decide),
    dif_pos (show (0 : Fin S12800x128.rank) ∈ dotA.lhsNonContracting by decide)]
  rfl
theorem dotA_lhs1 (i : S12800x64.Idx) (q : dotA.contr.Idx) : (dotA.lhsIdx i q 1).val = (q ⟨0, by decide⟩).val :=
  dotA.lhsIdx_val_of_single rfl i q
theorem dotA_rhs0 (i : S12800x64.Idx) (q : dotA.contr.Idx) : (dotA.rhsIdx i q 0).val = (i 1).val := by
  unfold DotDims.rhsIdx
  rw [dif_neg (show ¬(0 : Fin S64x128.rank) ∈ dotA.rhsBatch by decide),
    dif_pos (show (0 : Fin S64x128.rank) ∈ dotA.rhsNonContracting by decide)]
  rfl
theorem dotA_rhs1 (i : S12800x64.Idx) (q : dotA.contr.Idx) : (dotA.rhsIdx i q 1).val = (q ⟨0, by decide⟩).val :=
  dotA.rhsIdx_val_of_single rfl i q

theorem dotB_lhs0 (i : S12800x64.Idx) (q : dotB.contr.Idx) : (dotB.lhsIdx i q 0).val = (i 0).val := by
  unfold DotDims.lhsIdx
  rw [dif_neg (show ¬(0 : Fin S12800x64.rank) ∈ dotB.lhsBatch by decide),
    dif_pos (show (0 : Fin S12800x64.rank) ∈ dotB.lhsNonContracting by decide)]
  rfl
theorem dotB_lhs1 (i : S12800x64.Idx) (q : dotB.contr.Idx) : (dotB.lhsIdx i q 1).val = (q ⟨0, by decide⟩).val :=
  dotB.lhsIdx_val_of_single rfl i q
theorem dotB_rhs0 (i : S12800x64.Idx) (q : dotB.contr.Idx) : (dotB.rhsIdx i q 0).val = (i 1).val := by
  unfold DotDims.rhsIdx
  rw [dif_neg (show ¬(0 : Fin S64x64.rank) ∈ dotB.rhsBatch by decide),
    dif_pos (show (0 : Fin S64x64.rank) ∈ dotB.rhsNonContracting by decide)]
  rfl
theorem dotB_rhs1 (i : S12800x64.Idx) (q : dotB.contr.Idx) : (dotB.rhsIdx i q 1).val = (q ⟨0, by decide⟩).val :=
  dotB.rhsIdx_val_of_single rfl i q

/-! ## The body's values, named in the order it computes them -/

/-- The first product: the flattened block against the rows of `x1`, into zero. -/
def pre1 : FVec Ideal S12800x64 .f32 :=
  matmul dotA none
    (shapeCast S12800x128 (shapeCast S400x32x128 x0 shapeCasts_S400x32x128_S400x32x128) shapeCasts_S400x32x128_S12800x128)
    (shapeCast S64x128 x1 shapeCasts_S64x128_S64x128) (constant S12800x64 .f32 0x00000000#32)

/-- The rectifier on a [12800, 64] array, as the body spells it. -/
def rect (v : FVec Ideal S12800x64 .f32) : FVec Ideal S12800x64 .f32 :=
  select (cmpf .ogt v (broadcast S12800x64 (Scalar.ofBits .f32 0x00000000#32))) v
    (mulf (broadcast S12800x64 (Scalar.ofBits .f32 0x3D4CCCCD#32)) v)

/-- The second product: the rectified first layer, rounded to bf16 (the identity here), against the rows of `x2`. -/
def pre2 : FVec Ideal S12800x64 .f32 :=
  matmul dotB none (truncf .bf16 (rect (pre1 x0 x1)) bitsLt_bf16_f32) (shapeCast S64x64 x2 shapeCasts_S64x64_S64x64)
    (constant S12800x64 .f32 0x00000000#32)

/-- The maximum over the neighbour axis of a [12800, 64] array viewed as [400, 32, 64]. -/
def pooled (v : FVec Ideal S12800x64 .f32) : FVec Ideal S400x64 .f32 :=
  multiReduction .maximumf [1] S400x64 (shapeCast S400x32x64 v shapeCasts_S12800x64_S400x32x64) 0xFF800000#32
    reduces_S400x32x64_S400x64 (.inl rfl) rfl

set_option maxRecDepth 65536 in
/-- The stored value is the two maxima side by side. -/
theorem pay_eq : k0_pay1 (F := Ideal) x0 x1 x2
    = concatenate S400x128 1 [⟨S400x64, pooled (rect (pre1 x0 x1))⟩, ⟨S400x64, pooled (rect (pre2 x0 x1 x2))⟩]
        concatenates_S400x64_S400x64_S400x128_d1 := rfl

/-! ## Each value at an index -/

/-- The rectifier at an index is `PoolSpec.leaky` of the entry. -/
theorem rect_apply (v : FVec Ideal S12800x64 .f32) (i : S12800x64.Idx) : rect v i = leaky (v i) := rfl

/-- The first product at row `32 p + l`, column `o`: neighbour `l` of node `p` against row `o` of `x1`. -/
theorem pre1_at (p : Fin 400) (l : Fin 32) (o : Fin 64) (r : Fin 12800) (hr : r.val = p.val * 32 + l.val) :
    pre1 x0 x1 (ix2 r o) = ∑ c : Fin 128, x0 (ix3 p l c) * x1 (ix2 o c) := by
  unfold pre1
  simp only [matmul]
  rw [Ideal.matmul_constant_zero_apply, ← Equiv.sum_comp (contrEquiv1 dotA 128 rfl rfl).symm]
  refine Finset.sum_congr rfl fun k _ => ?_
  have hk := contrEquiv1_symm_val dotA 128 rfl rfl k
  rw [shapeCast_self, shapeCast_self]
  congr 1
  · refine shapeCast_apply x0 _ _ (ix3 p l k) ?_
    rw [Shape.rowMajor_val_three, Shape.rowMajor_val_two, dotA_lhs0, dotA_lhs1, hk]
    show (p.val * 32 + l.val) * 128 + k.val = r.val * 128 + k.val
    rw [hr]
  · refine congrArg x1 (funext fun a => Fin.ext ?_)
    match a with
    | ⟨0, _⟩ => exact dotA_rhs0 _ _
    | ⟨1, _⟩ => exact (dotA_rhs1 _ _).trans hk

/-- The rectified first layer at row `32 p + l`: `layer1` of that neighbour's features. -/
theorem act1_at (p : Fin 400) (l : Fin 32) (o : Fin 64) (r : Fin 12800) (hr : r.val = p.val * 32 + l.val) :
    rect (pre1 x0 x1) (ix2 r o) = layer1 (fun c => x0 (ix3 p l c)) x1 o := by
  rw [rect_apply, pre1_at x0 x1 p l o r hr]
  rfl

/-- The second product at row `32 p + l`, column `o`: that neighbour's first layer against row `o` of `x2`. -/
theorem pre2_at (p : Fin 400) (l : Fin 32) (o : Fin 64) (r : Fin 12800) (hr : r.val = p.val * 32 + l.val) :
    pre2 x0 x1 x2 (ix2 r o) = ∑ h : Fin 64, layer1 (fun c => x0 (ix3 p l c)) x1 h * x2 (ix2 o h) := by
  unfold pre2
  simp only [matmul]
  rw [Ideal.matmul_constant_zero_apply, ← Equiv.sum_comp (contrEquiv1 dotB 64 rfl rfl).symm]
  refine Finset.sum_congr rfl fun k _ => ?_
  have hk := contrEquiv1_symm_val dotB 64 rfl rfl k
  rw [shapeCast_self]
  congr 1
  · show rect (pre1 x0 x1) _ = _
    rw [show dotB.lhsIdx (ix2 r o) ((contrEquiv1 dotB 64 rfl rfl).symm k) = ix2 r k from funext fun a => Fin.ext (by
      match a with
      | ⟨0, _⟩ => exact dotB_lhs0 _ _
      | ⟨1, _⟩ => exact (dotB_lhs1 _ _).trans hk)]
    exact act1_at x0 x1 p l k r hr
  · refine congrArg x2 (funext fun a => Fin.ext ?_)
    match a with
    | ⟨0, _⟩ => exact dotB_rhs0 _ _
    | ⟨1, _⟩ => exact (dotB_rhs1 _ _).trans hk

/-- The rectified second layer at row `32 p + l`: `layer2` of that neighbour's features. -/
theorem act2_at (p : Fin 400) (l : Fin 32) (o : Fin 64) (r : Fin 12800) (hr : r.val = p.val * 32 + l.val) :
    rect (pre2 x0 x1 x2) (ix2 r o) = layer2 (fun c => x0 (ix3 p l c)) x1 x2 o := by
  rw [rect_apply, pre2_at x0 x1 x2 p l o r hr]
  rfl

/-- The maximum over the neighbour axis at `(p, o)`: `top` of the rows `32 p + l`. -/
theorem pooled_at (v : FVec Ideal S12800x64 .f32) (p : Fin 400) (o : Fin 64) :
    pooled v (ix2 p o) = top fun l => v (ix2 ⟨p.val * 32 + l.val, by have := p.isLt; have := l.isLt; omega⟩ o) := by
  unfold pooled
  refine (Ideal.multiReduction_maximumf_single (shapeCast S400x32x64 v shapeCasts_S12800x64_S400x32x64) 0xFF800000#32
    reduces_S400x32x64_S400x64 (.inl rfl) rfl (ix2 p o)).trans ?_
  unfold top
  refine congrArg (Finset.fold max (Ideal.ofBits .f32 0xFF800000#32) · Finset.univ) (funext fun l => ?_)
  show shapeCast S400x32x64 v shapeCasts_S12800x64_S400x32x64 (reduces_S400x32x64_S400x64.lift (ix2 p o) l) = _
  refine shapeCast_apply v _ _ _ ?_
  rw [Shape.rowMajor_val_three, Shape.rowMajor_val_two]
  rfl

/-- Entry `(p, j)` of what the body stores is `poolEntry` of node `p`'s rows of the block. -/
theorem pay_at (p : Fin 400) (j : Fin 128) :
    k0_pay1 (F := Ideal) x0 x1 x2 (ix2 p j) = poolEntry (fun l c => x0 (ix3 p l c)) x1 x2 j := by
  rw [pay_eq]
  unfold poolEntry
  by_cases h : j.val < 64
  · rw [dif_pos h]
    refine (concatenate_pair_apply_left (t := S400x128) (s₁ := S400x64) (s₂ := S400x64) (1 : Fin 2) _ _ concatenates_S400x64_S400x64_S400x128_d1 (ix2 p j) rfl
      (ix2 p ⟨j.val, h⟩) (fun b => ?_)).trans ?_
    · match b with
      | ⟨0, _⟩ => rfl
      | ⟨1, _⟩ => rfl
    · rw [pooled_at]
      exact congrArg top (funext fun l => act1_at x0 x1 p l ⟨j.val, h⟩ _ rfl)
  · rw [dif_neg h]
    have hj := j.isLt
    refine (concatenate_pair_apply_right (t := S400x128) (s₁ := S400x64) (s₂ := S400x64) (1 : Fin 2) _ _ concatenates_S400x64_S400x64_S400x128_d1 (ix2 p j) rfl rfl
      (ix2 p ⟨j.val - 64, by omega⟩) (fun b hb => ?_) ?_).trans ?_
    · match b with
      | ⟨0, _⟩ => rfl
      | ⟨1, _⟩ => exact absurd rfl hb
    · show j.val - 64 + 64 = j.val
      omega
    · rw [pooled_at]
      exact congrArg top (funext fun l => act2_at x0 x1 x2 p l ⟨j.val - 64, by omega⟩ _ rfl)

end Cert.KernelIdeal.Body

end
-- ==== Proof.KernelWhole.lean ====
/-
  From the kernel's blocks to its whole result array.

  Grid point `t` (of 125) works on nodes `400 t … 400 t + 399`: its input block is those nodes' rows of the
  gathered array, the two weight matrices come whole, and it writes back rows `400 t … 400 t + 399` of the
  result. What it writes is `PoolSpec.poolEntry` of each node's own rows, so every block is the restriction
  of one function of the arrays as the region finds them, `PoolSpec.poolResult`; the 125 blocks cover the
  50000 rows (row `r` lies in block `r / 400`), so the result array ends holding that function.
-/
import proofs.«181060_j61950608277608_1_alg».proof.Proof.Gen.KernelIdeal.Value
import proofs.«181060_j61950608277608_1_alg».proof.Proof.KernelBody
import Idealize.ShloMosaic.Lib.Pipeline.Value
import Idealize.ShloMosaic.Lib.Tactic

noncomputable section

namespace Cert.KernelIdeal.Whole

open Cert.KernelIdeal Cert.KernelIdeal.Gen Idealize.ShloMosaic Idealize.ShloMosaic.TcCoe Idealize.SL.Sem
open Idealize.ShloMosaic.ValueIdx Cert.PoolSpec
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- The printed index maps over the grid: the gathered array's and the result's blocks move with the point
    along the node axis, the weight matrices stay. -/
theorem index_maps : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The result as one function of the three arrays the region finds. -/
def whole (c : Dev nD) : S50000x128.Idx → EReal :=
  poolResult (V m c main_v9) (V m c main_v10) (V m c main_v11)

/-- The gathered array's block at point `t`, entry `(p, l, c)`: node `400 t + p` of the array. -/
theorem gathered_block (c : Dev nD) (t : Fin cfg0.N) (y : S400x32x128.Idx) (k : S50000x32x128.Idx)
    (h0 : (k 0).val = 400 * t.val + (y 0).val) (h1 : (k 1).val = (y 1).val) (h2 : (k 2).val = (y 2).val) :
    iblk m c 0 t y = V m c main_v9 k := by
  obtain ⟨e0, e1, e2, -⟩ := index_maps t
  unfold iblk
  rw [View.read_apply]
  show V m c main_v9 _ = V m c main_v9 k
  refine congrArg (V m c main_v9) (funext fun a => Fin.ext ?_)
  match a with
  | ⟨0, _⟩ => show win0_0.index t (0 : Fin 3) * 400 + 1 * (y 0).val = (k 0).val; rw [e0, h0]; omega
  | ⟨1, _⟩ => show win0_0.index t (1 : Fin 3) * 32 + 1 * (y 1).val = (k 1).val; rw [e1, h1]; omega
  | ⟨2, _⟩ => show win0_0.index t (2 : Fin 3) * 128 + 1 * (y 2).val = (k 2).val; rw [e2, h2]; omega

/-- The first weight matrix's block is the whole matrix at every point. -/
theorem w1_block (c : Dev nD) (t : Fin cfg0.N) : iblk m c 1 t = V m c main_v10 := by
  obtain ⟨-, -, -, e0, e1, -⟩ := index_maps t
  funext y
  unfold iblk
  rw [View.read_apply]
  show V m c main_v10 _ = V m c main_v10 y
  refine congrArg (V m c main_v10) (funext fun a => Fin.ext ?_)
  match a with
  | ⟨0, _⟩ => show win0_1.index t (0 : Fin 2) * 64 + 1 * (y 0).val = (y 0).val; rw [e0]; omega
  | ⟨1, _⟩ => show win0_1.index t (1 : Fin 2) * 128 + 1 * (y 1).val = (y 1).val; rw [e1]; omega

/-- The second weight matrix's block is the whole matrix at every point. -/
theorem w2_block (c : Dev nD) (t : Fin cfg0.N) : iblk m c 2 t = V m c main_v11 := by
  obtain ⟨-, -, -, -, -, e0, e1, -⟩ := index_maps t
  funext y
  unfold iblk
  rw [View.read_apply]
  show V m c main_v11 _ = V m c main_v11 y
  refine congrArg (V m c main_v11) (funext fun a => Fin.ext ?_)
  match a with
  | ⟨0, _⟩ => show win0_2.index t (0 : Fin 2) * 64 + 1 * (y 0).val = (y 0).val; rw [e0]; omega
  | ⟨1, _⟩ => show win0_2.index t (1 : Fin 2) * 64 + 1 * (y 1).val = (y 1).val; rw [e1]; omega

/-- What point `t` writes back is block `t` of `whole`. -/
theorem flushed_eq (c : Dev nD) (t : Fin cfg0.N) :
    (dats m 0 c).flushed 3 t = ((cfg0.win 3).blk t).view.read (Elt Ideal) (whole m c) := by
  rw [Value.flushed3]
  unfold out0_3
  rw [View.canon_unit_zero zero2]
  simp only [View.ld_unit_zero (S := S400x32x128) zero3, View.ld_unit_zero (S := S64x128) zero2,
    View.ld_unit_zero (S := S64x64) zero2]
  obtain ⟨-, -, -, -, -, -, -, e0, e1⟩ := index_maps t
  funext y
  obtain ⟨p, j, rfl⟩ : ∃ (p : Fin 400) (j : Fin 128), y = ix2 p j := ⟨y 0, y 1, eq_ix2 y⟩
  show k0_pay1 (F := Ideal) (iblk m c 0 t) (iblk m c 1 t) (iblk m c 2 t) (ix2 p j)
    = whole m c (((cfg0.win 3).blk t).view.emb (ix2 p j))
  refine (Body.pay_at (iblk m c 0 t) (iblk m c 1 t) (iblk m c 2 t) p j).trans ?_
  have hp := p.isLt
  have ht : t.val < 125 := lt_of_lt_of_eq t.isLt (show cfg0.N = 125 from N_0)
  have hrow : ((cfg0.win 3).blk t).view.emb (ix2 p j) = ix2 ⟨400 * t.val + p.val, by omega⟩ j :=
    funext fun a => Fin.ext (by
      match a with
      | ⟨0, _⟩ => show win0_3.index t (0 : Fin 2) * 400 + 1 * p.val = 400 * t.val + p.val; rw [e0]; omega
      | ⟨1, _⟩ => show win0_3.index t (1 : Fin 2) * 128 + 1 * j.val = j.val; rw [e1]; omega)
  rw [hrow, w1_block, w2_block]
  unfold whole poolResult
  refine congrArg (fun x => poolEntry x (V m c main_v10) (V m c main_v11) j) (funext fun l => funext fun ch => ?_)
  exact gathered_block m c t (ix3 p l ch) _ rfl rfl rfl

/-- An index of the result lies in point `t`'s block iff each coordinate lies in the block's range. -/
theorem mem_block (t : Fin cfg0.N) (i : S50000x128.Idx) :
    i ∈ ((cfg0.win 3).blk t).view.set ↔ ∀ a : Fin 2, win0_3.index t a * S400x128.size a ≤ (i a).val
      ∧ (i a).val < win0_3.index t a * S400x128.size a + S400x128.size a := by
  show i ∈ ((View.whole main_v12).slice (win0_3.rect t)).set ↔ _
  rw [View.set_slice_whole, Rect.mem_set_unit]
  exact Iff.rfl

/-- Every row of the result is in some point's block: row `r` in block `r / 400`. -/
theorem covered (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 125 := N_0
  refine ⟨⟨(i 0).val / 400, by rw [hN]; omega⟩, flush0_3 _, ?_⟩
  obtain ⟨-, -, -, -, -, -, -, e0, e1⟩ := index_maps ⟨(i 0).val / 400, by rw [hN]; omega⟩
  rw [mem_block]
  intro a
  match a with
  | ⟨0, _⟩ =>
    show win0_3.index ⟨(i 0).val / 400, _⟩ (0 : Fin 2) * 400 ≤ (i 0).val
      ∧ (i 0).val < win0_3.index ⟨(i 0).val / 400, _⟩ (0 : Fin 2) * 400 + 400
    rw [e0]
    show (i 0).val / 400 * 400 ≤ (i 0).val ∧ (i 0).val < (i 0).val / 400 * 400 + 400
    omega
  | ⟨1, _⟩ =>
    show win0_3.index ⟨(i 0).val / 400, _⟩ (1 : Fin 2) * 128 ≤ (i 1).val
      ∧ (i 1).val < win0_3.index ⟨(i 0).val / 400, _⟩ (1 : Fin 2) * 128 + 128
    rw [e1]
    omega

/-- The result array after the run is `whole`. -/
theorem final (c : Dev nD) : (dats m 0 c).arrAt 3 cfg0.N = whole m c :=
  (dats m 0 c).arrAt_eq_of_cover 3 (whole m c) (fun t _ => flushed_eq m c t) covered

/-- The run, read: the result array at `whole`, the arguments unchanged. -/
theorem run : θ_run defs (onTc (τ := τ) (main (F := Ideal))) ⟨m, fun _ => 0, ρ⟩ fun r => ∀ c : Dev nD,
      r.2.mem ((c : Thread nD τ).loc main_v12) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.KernelEntry.lean ====
/-
  What the region finds in the three arrays it reads, as functions of the program's arguments.

  Before the launch the program prepends a zero row to `z`, rounds the 100001 rows to bf16, turns each
  negative neighbour index `i` into `i + 100001`, and gathers the indexed rows: the gathered array. It also
  rounds the two weight matrices to bf16. On the extended reals the roundings are the identity, so the weight
  matrices arrive as they were passed.
-/
import proofs.«181060_j61950608277608_1_alg».proof.Proof.Gen.KernelIdeal.Frame
import Idealize.ShloMosaic.Lib.StableHlo.Run
import Idealize.ShloMosaic.PureOps.Ideal

noncomputable section

namespace Cert.KernelIdeal.Entry

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The gathered array [50000, 32, 128] from `z` and the neighbour indices, as the kernel's program computes it. -/
def gathered (z : (⟨S100000x128, .f32⟩ : BufTy).Contents (Elt Ideal)) (nb : (⟨S50000x32, .i32⟩ : BufTy).Contents (Elt Ideal)) :
    (⟨S50000x32x128, .bf16⟩ : BufTy).Contents (Elt Ideal) :=
  Host.gather gather_S100001x128_S50000x32x1_S50000x32x128_2_0_n_n_0_2_1128
    (truncf .bf16 (concatenate S100001x128 0
      [⟨S1x128, broadcastInDim S1x128 ![] bcast_S_S1x128 (constant (F := Ideal) S_ .f32 0x00000000#32)⟩, ⟨S100000x128, z⟩]
      concatenates_S1x128_S100000x128_S100001x128_d0) bitsLt_bf16_f32)
    (broadcastInDim S50000x32x1 ![0, 1] bcast_S50000x32_S50000x32x1_0_1
      (select (cmpi .slt nb (broadcastInDim S50000x32 ![] bcast_S_S50000x32 (constantI S_ 32 0#32)))
        (addi nb (broadcastInDim S50000x32 ![] bcast_S_S50000x32 (constantI S_ 32 100001#32))) nb))

/-- The region finds the gathered array in its first window's array. -/
theorem found_gathered (c : Dev nD) :
    (V m c main_v9 : S50000x32x128.Idx → EReal)
      = gathered (m ((c : Thread nD τ).loc main_arg0)) (m ((c : Thread nD τ).loc main_arg1)) := by
  dsimp only [Gen.V, Gen.hostOps0]
  after_results
  rfl

/-- The region finds the first weight matrix as passed. -/
theorem found_w1 (c : Dev nD) :
    (V m c main_v10 : S64x128.Idx → EReal) = m ((c : Thread nD τ).loc main_arg2) := by
  dsimp only [Gen.V, Gen.hostOps0]
  after_results
  rfl

/-- The region finds the second weight matrix as passed. -/
theorem found_w2 (c : Dev nD) :
    (V m c main_v11 : S64x64.Idx → EReal) = m ((c : Thread nD τ).loc main_arg3) := by
  dsimp only [Gen.V, Gen.hostOps0]
  after_results
  rfl

end Cert.KernelIdeal.Entry

end
-- ==== Proof.RefRead.lean ====
/-
  The reference's result, read entry by entry: it is `PoolSpec.poolResult` of the gathered array and the two
  weight matrices.

  The reference contracts every neighbour's features with `w1`, applies the leaky rectifier, contracts
  with `w2`, applies it again, joins the two [50000, 32, 64] arrays along the channel axis and takes the
  maximum over the neighbour axis. At node `n` and channel `j` the source indices that reduce to `(n, j)`
  are `(n, l, j)` for the 32 neighbours `l`; the joined array there is the first half's entry when
  `j < 64` and the second half's entry at `j - 64` otherwise.
-/
import proofs.«181060_j61950608277608_1_alg».proof.Proof.ReferenceRead
import proofs.«181060_j61950608277608_1_alg».proof.Proof.PoolSpec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.ReadP Idealize.ShloMosaic
open Idealize.ShloMosaic.ValueIdx Cert.PoolSpec

variable (x0 : (⟨S100000x128, .f32⟩ : BufTy).Contents (Elt Ideal)) (x1 : (⟨S50000x32, .i32⟩ : BufTy).Contents (Elt Ideal))
  (x2 : (⟨S64x128, .f32⟩ : BufTy).Contents (Elt Ideal)) (x3 : (⟨S64x64, .f32⟩ : BufTy).Contents (Elt Ideal))

/-- The first rectified layer at `(n, l, o)`: neighbour `l` of node `n`, its gathered features against row `o` of `w1`. -/
theorem first_at (n : Fin 50000) (l : Fin 32) (o : Fin 64) :
    val_main_v14 (F := Ideal) x0 x1 x2 (ix3 n l o)
      = layer1 (fun c => val_main_v8 (F := Ideal) x0 x1 (ix3 n l c)) x2 o := by
  have el : ∀ k : Fin 128, lidx_main_v9 (ix3 n l o) k = ix3 n l k := fun k => funext fun a => Fin.ext (by
    match a with
    | ⟨0, _⟩ => rfl
    | ⟨1, _⟩ => rfl
    | ⟨2, _⟩ => rfl)
  have er : ∀ k : Fin 128, ridx_main_v9 (ix3 n l o) k = ix2 o k := fun k => funext fun a => Fin.ext (by
    match a with
    | ⟨0, _⟩ => rfl
    | ⟨1, _⟩ => rfl)
  rw [val_main_v14_apply, val_main_v11_apply, val_main_v13_apply, val_main_v9_apply, val_main_v10_apply,
    val_main_v12_apply, val_main_cst_1_apply, val_main_cst_2_apply]
  simp only [el, er]
  rfl

/-- The second rectified layer at `(n, l, o)`: the first layer's 64 values against row `o` of `w2`. -/
theorem second_at (n : Fin 50000) (l : Fin 32) (o : Fin 64) :
    val_main_v20 (F := Ideal) x0 x1 x2 x3 (ix3 n l o)
      = layer2 (fun c => val_main_v8 (F := Ideal) x0 x1 (ix3 n l c)) x2 x3 o := by
  have el : ∀ k : Fin 64, lidx_main_v15 (ix3 n l o) k = ix3 n l k := fun k => funext fun a => Fin.ext (by
    match a with
    | ⟨0, _⟩ => rfl
    | ⟨1, _⟩ => rfl
    | ⟨2, _⟩ => rfl)
  have er : ∀ k : Fin 64, ridx_main_v15 (ix3 n l o) k = ix2 o k := fun k => funext fun a => Fin.ext (by
    match a with
    | ⟨0, _⟩ => rfl
    | ⟨1, _⟩ => rfl)
  rw [val_main_v20_apply, val_main_v17_apply, val_main_v19_apply, val_main_v15_apply, val_main_v16_apply,
    val_main_v18_apply, val_main_cst_3_apply, val_main_cst_4_apply]
  simp only [el, er, first_at]
  rfl

/-- The two layers joined along the channel axis, at `(n, l, j)`. -/
theorem joined_at (n : Fin 50000) (l : Fin 32) (j : Fin 128) :
    val_main_v21 (F := Ideal) x0 x1 x2 x3 (ix3 n l j)
      = both (fun l c => val_main_v8 (F := Ideal) x0 x1 (ix3 n l c)) x2 x3 j l := by
  unfold val_main_v21 both
  by_cases h : j.val < 64
  · rw [dif_pos h]
    refine (concatenate_pair_apply_left (t := S50000x32x128) (s₁ := S50000x32x64) (s₂ := S50000x32x64) (2 : Fin 3) _ _ concatenates_S50000x32x64_S50000x32x64_S50000x32x128_d2
      (ix3 n l j) rfl (ix3 n l ⟨j.val, h⟩) (fun b => ?_)).trans (first_at x0 x1 x2 n l ⟨j.val, h⟩)
    match b with
    | ⟨0, _⟩ => rfl
    | ⟨1, _⟩ => rfl
    | ⟨2, _⟩ => rfl
  · rw [dif_neg h]
    have hj := j.isLt
    refine (concatenate_pair_apply_right (t := S50000x32x128) (s₁ := S50000x32x64) (s₂ := S50000x32x64) (2 : Fin 3) _ _ concatenates_S50000x32x64_S50000x32x64_S50000x32x128_d2
      (ix3 n l j) rfl rfl (ix3 n l ⟨j.val - 64, by omega⟩) (fun b hb => ?_) ?_).trans
      (second_at x0 x1 x2 x3 n l ⟨j.val - 64, by omega⟩)
    · match b with
      | ⟨0, _⟩ => rfl
      | ⟨1, _⟩ => rfl
      | ⟨2, _⟩ => exact absurd rfl hb
    · show j.val - 64 + 64 = j.val
      omega

/-- The reference's result is the specification's, of its own gathered array. -/
theorem result_eq :
    val_main_v22 (F := Ideal) x0 x1 x2 x3 = poolResult (val_main_v8 (F := Ideal) x0 x1) x2 x3 := by
  funext i
  have hR : S50000x32x128.Reduces [1] S50000x128 := by decide
  unfold val_main_v22
  rw [Host.reduce_eq_fold_single (FloatOps.maximumf (F := Ideal) (φ := .f32)) _ _
    reducesTo_S50000x32x128_S50000x128_d1 hR h_S_ i]
  unfold poolResult
  refine Eq.trans ?_ (top_both (fun l c => val_main_v8 (F := Ideal) x0 x1 (ix3 (i 0) l c)) x2 x3 (i 1))
  have hf : (val_main_v21 (F := Ideal) x0 x1 x2 x3 ∘ hR.lift i)
      = both (fun l c => val_main_v8 (F := Ideal) x0 x1 (ix3 (i 0) l c)) x2 x3 (i 1) := funext fun l => by
    show val_main_v21 (F := Ideal) x0 x1 x2 x3 (hR.lift i l) = _
    rw [show hR.lift i l = ix3 (i 0) l (i 1) from funext fun a => Fin.ext (by
      match a with
      | ⟨0, _⟩ => rfl
      | ⟨1, _⟩ => rfl
      | ⟨2, _⟩ => rfl)]
    exact joined_at x0 x1 x2 x3 (i 0) l (i 1)
  rw [hf]
  rfl

end Cert.ReferenceIdeal.RefValue

end
-- ==== Proof.lean ====
/-
  The kernel and the reference compute, on the extended reals, one function of the arguments.

  Both programs prepend a zero row to `z`, normalise the neighbour indices and gather the indexed rows: the
  same gathered array `X` [50000, 32, 128] (the kernel's rounding of the table to bf16 is the identity here).
  For node `n` and neighbour `l` let `a = φ (X[n, l, :] · w1ᵀ)` and `b = φ (a · w2ᵀ)`, `φ` the leaky
  rectifier with the slope word `0x3D4CCCCD`. The reference joins `a` and `b` along the channel axis and
  takes the maximum over `l`; the kernel, on blocks of 400 nodes, takes the two maxima and joins them.
  Both are `PoolSpec.poolResult X w1 w2`: a matrix product into a zero accumulator and a `dot_general` are
  the same finite sum, a change of float format is the identity, and the half of the joined row an entry lies
  in does not depend on the neighbour. No step needs the inputs to be finite.

  The frames of the two kernel programs and the kernel's run block by block are the generated ones; the
  reference's frame is its run with the result dropped.
-/
import proofs.«181060_j61950608277608_1_alg».proof.Defs
import proofs.«181060_j61950608277608_1_alg».proof.Proof.Gen.Kernel
import proofs.«181060_j61950608277608_1_alg».proof.Proof.Gen.Kernel.Skeleton
import proofs.«181060_j61950608277608_1_alg».proof.Proof.Gen.Kernel.Launch
import proofs.«181060_j61950608277608_1_alg».proof.Proof.Gen.Kernel.Points
import proofs.«181060_j61950608277608_1_alg».proof.Proof.Gen.Kernel.Frame
import proofs.«181060_j61950608277608_1_alg».proof.Proof.Gen.KernelIdeal
import proofs.«181060_j61950608277608_1_alg».proof.Proof.Gen.KernelIdeal.Skeleton
import proofs.«181060_j61950608277608_1_alg».proof.Proof.Gen.KernelIdeal.Launch
import proofs.«181060_j61950608277608_1_alg».proof.Proof.Gen.KernelIdeal.Points
import proofs.«181060_j61950608277608_1_alg».proof.Proof.Gen.KernelIdeal.Frame
import proofs.«181060_j61950608277608_1_alg».proof.Proof.Gen.KernelIdeal.Value
import proofs.«181060_j61950608277608_1_alg».proof.Proof.Gen.ReferenceIdeal
import proofs.«181060_j61950608277608_1_alg».proof.Proof.Gen.Pre_finite_inputs
import proofs.«181060_j61950608277608_1_alg».proof.Proof.KernelWhole
import proofs.«181060_j61950608277608_1_alg».proof.Proof.KernelEntry
import proofs.«181060_j61950608277608_1_alg».proof.Proof.RefRead
import Idealize.ShloMosaic.Adequacy
import Idealize.ShloMosaic.Init

noncomputable section

namespace Cert.Proof

open Idealize.ShloMosaic Idealize.SL.Sem

/-- The two programs gather the same rows: the same table (rounded to bf16 in the kernel's program, which
    changes nothing here), the same normalised indices, the same dimension numbers. -/
theorem gathered_same (z : (⟨Cert.KernelIdeal.S100000x128, .f32⟩ : BufTy).Contents (Elt Ideal))
    (nb : (⟨Cert.KernelIdeal.S50000x32, .i32⟩ : BufTy).Contents (Elt Ideal)) :
    Cert.KernelIdeal.Entry.gathered z nb = Cert.ReferenceIdeal.ReadP.val_main_v8 (F := Ideal) z nb := rfl

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote nothing, so there is nothing to preserve. -/
theorem preserves : Cert.preserves_Kernel_KernelIdeal := trivial

/-- Both results are `PoolSpec.poolResult` of the gathered array and the weight matrices. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v22_eq, Cert.ReferenceIdeal.RefValue.result_eq,
    (hagree c).1, (hagree c).2.1, (hagree c).2.2.1, (hagree c).2.2.2]
  unfold Cert.KernelIdeal.Whole.whole
  rw [Cert.KernelIdeal.Entry.found_gathered, Cert.KernelIdeal.Entry.found_w1, Cert.KernelIdeal.Entry.found_w2,
    gathered_same]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
